-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S100000x64 : Shape := ⟨2, ![100000, 64]⟩
abbrev S5000x64 : Shape := ⟨2, ![5000, 64]⟩
abbrev S700000x64 : Shape := ⟨2, ![700000, 64]⟩
abbrev S1x64 : Shape := ⟨2, ![1, 64]⟩

abbrev nBuf : Space → Nat
  | .hbm => 82
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000, .i32⟩
  | .hbm, ⟨11, _⟩ => ⟨S700000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S700000, .i32⟩
  | .hbm, ⟨67, _⟩ => ⟨S700000, .i1⟩
  | .hbm, ⟨68, _⟩ => ⟨S_, .i32⟩
  | .hbm, ⟨69, _⟩ => ⟨S700000, .i32⟩
  | .hbm, ⟨70, _⟩ => ⟨S700000, .i32⟩
  | .hbm, ⟨71, _⟩ => ⟨S700000, .i32⟩
  | .hbm, ⟨72, _⟩ => ⟨S700000x1, .i32⟩
  | .hbm, ⟨73, _⟩ => ⟨S700000x64, .f32⟩
  | .hbm, ⟨74, _⟩ => ⟨S700000x1, .f32⟩
  | .hbm, ⟨75, _⟩ => ⟨S700000x64, .f32⟩
  | .hbm, ⟨76, _⟩ => ⟨S700000x64, .f32⟩
  | .hbm, ⟨77, _⟩ => ⟨S_, .f32⟩
  | .hbm, ⟨78, _⟩ => ⟨S100000x64, .f32⟩
  | .hbm, ⟨79, _⟩ => ⟨S700000x1, .i32⟩
  | .hbm, ⟨80, _⟩ => ⟨S100000x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000x128, .f32⟩
  | .hbm, ⟨11, _⟩ => ⟨S100000, .i32⟩
  | .hbm, ⟨12, _⟩ => ⟨S700000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S700000, .i32⟩
  | .hbm, ⟨72, _⟩ => ⟨S700000, .i32⟩
  | .hbm, ⟨73, _⟩ => ⟨S_, .f32⟩
  | .hbm, ⟨74, _⟩ => ⟨S700000, .f32⟩
  | .hbm, ⟨75, _⟩ => ⟨S_, .f32⟩
  | .hbm, ⟨76, _⟩ => ⟨S100000, .f32⟩
  | .hbm, ⟨77, _⟩ => ⟨S700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S700000, .i32⟩
  | .hbm, ⟨89, _⟩ => ⟨S700000, .i1⟩
  | .hbm, ⟨90, _⟩ => ⟨S_, .i32⟩
  | .hbm, ⟨91, _⟩ => ⟨S700000, .i32⟩
  | .hbm, ⟨92, _⟩ => ⟨S700000, .i32⟩
  | .hbm, ⟨93, _⟩ => ⟨S700000, .i32⟩
  | .hbm, ⟨94, _⟩ => ⟨S700000x1, .i32⟩
  | .hbm, ⟨95, _⟩ => ⟨S700000, .f32⟩
  | .hbm, ⟨96, _⟩ => ⟨S_, .i32⟩
  | .hbm, ⟨97, _⟩ => ⟨S700000, .i32⟩
  | .hbm, ⟨98, _⟩ => ⟨S700000, .i1⟩
  | .hbm, ⟨99, _⟩ => ⟨S_, .i32⟩
  | .hbm, ⟨100, _⟩ => ⟨S700000, .i32⟩
  | .hbm, ⟨101, _⟩ => ⟨S700000, .i32⟩
  | .hbm, ⟨102, _⟩ => ⟨S700000, .i32⟩
  | .hbm, ⟨103, _⟩ => ⟨S700000x1, .i32⟩
  | .hbm, ⟨104, _⟩ => ⟨S700000, .f32⟩
  | .hbm, ⟨105, _⟩ => ⟨S700000, .f32⟩
  | .hbm, ⟨106, _⟩ => ⟨S_, .i32⟩
  | .hbm, ⟨107, _⟩ => ⟨S700000, .i32⟩
  | .hbm, ⟨108, _⟩ => ⟨S700000, .i1⟩
  | .hbm, ⟨109, _⟩ => ⟨S_, .i32⟩
  | .hbm, ⟨110, _⟩ => ⟨S700000, .i32⟩
  | .hbm, ⟨111, _⟩ => ⟨S700000, .i32⟩
  | .hbm, ⟨112, _⟩ => ⟨S700000, .i32⟩
  | .hbm, ⟨113, _⟩ => ⟨S700000x1, .i32⟩
  | .hbm, ⟨114, _⟩ => ⟨S700000x64, .f32⟩
  | .hbm, ⟨115, _⟩ => ⟨S700000x1, .f32⟩
  | .hbm, ⟨116, _⟩ => ⟨S700000x64, .f32⟩
  | .hbm, ⟨117, _⟩ => ⟨S700000x64, .f32⟩
  | .hbm, ⟨118, _⟩ => ⟨S_, .f32⟩
  | .hbm, ⟨119, _⟩ => ⟨S100000x64, .f32⟩
  | .hbm, ⟨120, _⟩ => ⟨S700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

class Facts : Prop extends Facts₀ where

variable [Facts]
-- ==== Proof.KernelRun.lean ====
/-
  The kernel program's run with its result array NAMED. The launch of the four regions among their stretches of host
  operations ends with every unscoped buffer of a core holding the last boundary's contents (the fold of buffer contents
  through the program: each host stretch rewrites the buffers its operations write, each region rewrites its output
  array by its blocks' write-backs and leaves every other buffer). Read at the result buffer this gives the result array
  as that fold's value there; read at an argument buffer it gives the argument back, since nothing writes an argument.
-/
import proofs.«105615_j3083786518791_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and every argument array as launched. -/
theorem run_named : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.HostSpecK.lean ====
/-
  The sparse part of a graph-convolution layer as named functions of whole arrays, spelt with this program's own
  shapes and dimension records: the edge sources and targets followed by one self-loop per node; a possibly negative node
  index wrapped by the node count; a node's degree (ones summed into the edges' targets) and its inverse square root where
  the degree is positive, else zero; an edge's weight (the product of its two endpoints' inverse roots); and the
  aggregation of a feature matrix over the edges (each edge's source row, scaled by the edge's weight, summed into the
  edge's target row). Both programs run exactly these host operations, so the proof only ever compares their arguments.
-/
import proofs.«105615_j3083786518791_1_alg».proof.KernelIdeal

noncomputable section

namespace Cert.KernelIdeal.Hand

open Cert.KernelIdeal Idealize.ShloMosaic

variable {F : FTy → Type} [FloatOps F]
variable [Facts₀]
open Facts₀

/-- The edges' sources, then the self-loops 0 … 99999. -/
def srcAll (e : IVec S2x600000 32) : IVec S700000 32 :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The edges' targets, then the self-loops 0 … 99999. -/
def dstAll (e : IVec S2x600000 32) : IVec S700000 32 :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- A node index as a gather start: a negative one wrapped by the node count, as a column. -/
def wrapIdx (x : IVec S700000 32) : IVec S700000x1 32 :=
  broadcastInDim S700000x1 ![0] bcast_S700000_S700000x1_0 (select (cmpi .slt x (broadcastInDim S700000 ![] bcast_S_S700000 (constantI S_ 32 0#32))) (addi x (broadcastInDim S700000 ![] bcast_S_S700000 (constantI S_ 32 100000#32))) x)

/-- A node's degree: ones summed into the targets. -/
def degree (d : IVec S700000 32) : FVec F S100000 .f32 :=
  Host.scatterAdd scatter_S100000_S700000x1_S700000_n_0_0_1 (broadcastInDim S100000 ![] bcast_S_S100000 (constant S_ .f32 0x00000000#32)) (broadcastInDim S700000x1 ![0] bcast_S700000_S700000x1_0 d) (broadcastInDim S700000 ![] bcast_S_S700000 (constant S_ .f32 0x3F800000#32))

/-- The inverse square root of the degree where it is positive, zero elsewhere. -/
def degInv (d : IVec S700000 32) : FVec F S100000 .f32 :=
  select (cmpf (F := F) .ogt (degree (F := F) d) (broadcastInDim S100000 ![] bcast_S_S100000 (constant S_ .f32 0x00000000#32))) (Host.rsqrt (degree (F := F) d)) (broadcastInDim S100000 ![] bcast_S_S100000 (id (constant S_ .f32 0x00000000#32)))

/-- An edge's weight: the product of its endpoints' inverse roots. -/
def edgeNorm (s d : IVec S700000 32) : FVec F S700000 .f32 :=
  mulf (Host.gather gather_S100000_S700000x1_S700000_n_0_n_n_0_1_1 (degInv (F := F) d) (wrapIdx s)) (Host.gather gather_S100000_S700000x1_S700000_n_0_n_n_0_1_1 (degInv (F := F) d) (wrapIdx d))

/-- Aggregation of 128-wide rows over the edges. -/
def aggregate128 (h : FVec F S100000x128 .f32) (s d : IVec S700000 32) (n : FVec F S700000 .f32) : FVec F S100000x128 .f32 :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d) (mulf (Host.gather gather_S100000x128_S700000x1_S700000x128_1_0_n_n_0_1_1128 h (wrapIdx s)) (broadcastInDim S700000x128 ![0, 1] bcast_S700000x1_S700000x128_0_1 (broadcastInDim S700000x1 ![0] bcast_S700000_S700000x1_0 n)))

/-- Aggregation of 64-wide rows over the edges. -/
def aggregate64 (h : FVec F S100000x64 .f32) (s d : IVec S700000 32) (n : FVec F S700000 .f32) : FVec F S100000x64 .f32 :=
  Host.scatterAdd scatter_S100000x64_S700000x1_S700000x64_1_0_0_1 (broadcastInDim S100000x64 ![] bcast_S_S100000x64 (constant S_ .f32 0x00000000#32)) (broadcastInDim S700000x1 ![0] bcast_S700000_S700000x1_0 d) (mulf (Host.gather gather_S100000x64_S700000x1_S700000x64_1_0_n_n_0_1_164 h (wrapIdx s)) (broadcastInDim S700000x64 ![0, 1] bcast_S700000x1_S700000x64_0_1 (broadcastInDim S700000x1 ![0] bcast_S700000_S700000x1_0 n)))

end Cert.KernelIdeal.Hand

end
-- ==== Proof.HostStretch.lean ====
/-
  The kernel program's stretches of host operations, each read from an ARBITRARY starting valuation of the buffers: the
  three stretches before the first region leave the edge sources, the edge targets and the edge weights in their buffers
  as the named functions of the edge-list argument; the stretch after the first and after the third region leaves the
  aggregation of the dense output over the edges; and each stretch keeps every buffer it does not write. (Running a list
  of operations is a fold: each operation's result at its own buffer is its function of its operands' contents, and at
  any other buffer what was there.)
-/
import proofs.«105615_j3083786518791_1_alg».proof.Proof.Gen.KernelIdeal.Launch
import proofs.«105615_j3083786518791_1_alg».proof.Proof.HostSpecK
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]
variable (V : Valuation τ sig (Elt F))

/-! ## Before the first region -/

/-- The source buffer: the edge list's first row, then the self-loops. -/
theorem pre_src : after hostOps0_2 (after hostOps0_1 (after hostOps0 V)) (Proc.devRef .tc main_v5) = srcAll (V (Proc.devRef .tc main_arg1)) := by
  after_results_simp <;> rfl

/-- The target buffer: the edge list's second row, then the self-loops. -/
theorem pre_dst : after hostOps0_2 (after hostOps0_1 (after hostOps0 V)) (Proc.devRef .tc main_v6) = dstAll (V (Proc.devRef .tc main_arg1)) := by
  after_results_simp <;> rfl

/-- The edge-weight buffer. -/
theorem pre_norm : after hostOps0_2 (after hostOps0_1 (after hostOps0 V)) (Proc.devRef .tc main_v29)
    = edgeNorm (F := F) (srcAll (V (Proc.devRef .tc main_arg1))) (dstAll (V (Proc.devRef .tc main_arg1))) := by
  after_results_simp <;> rfl

/-- No operation before the first region writes this argument. -/
theorem pre_keep_arg0 : after hostOps0_2 (after hostOps0_1 (after hostOps0 V)) (Proc.devRef .tc main_arg0) = V (Proc.devRef .tc main_arg0) := by
  after_results_simp <;> rfl

/-- No operation before the first region writes this argument. -/
theorem pre_keep_arg2 : after hostOps0_2 (after hostOps0_1 (after hostOps0 V)) (Proc.devRef .tc main_arg2) = V (Proc.devRef .tc main_arg2) := by
  after_results_simp <;> rfl

/-- No operation before the first region writes this argument. -/
theorem pre_keep_arg3 : after hostOps0_2 (after hostOps0_1 (after hostOps0 V)) (Proc.devRef .tc main_arg3) = V (Proc.devRef .tc main_arg3) := by
  after_results_simp <;> rfl

/-- No operation before the first region writes this argument. -/
theorem pre_keep_arg4 : after hostOps0_2 (after hostOps0_1 (after hostOps0 V)) (Proc.devRef .tc main_arg4) = V (Proc.devRef .tc main_arg4) := by
  after_results_simp <;> rfl

/-- No operation before the first region writes this argument. -/
theorem pre_keep_arg5 : after hostOps0_2 (after hostOps0_1 (after hostOps0 V)) (Proc.devRef .tc main_arg5) = V (Proc.devRef .tc main_arg5) := by
  after_results_simp <;> rfl

/-! ## Between the first and the second region -/

/-- The aggregation of the first dense output over the edges. -/
theorem mid_agg : after hostOps1 V (Proc.devRef .tc main_v43)
    = aggregate128 (V (Proc.devRef .tc main_v30)) (V (Proc.devRef .tc main_v5)) (V (Proc.devRef .tc main_v6)) (V (Proc.devRef .tc main_v29)) := by
  after_results_simp <;> rfl

/-- The stretch between the first two regions does not write this buffer. -/
theorem mid_keep_v5 : after hostOps1 V (Proc.devRef .tc main_v5) = V (Proc.devRef .tc main_v5) := by
  after_results_simp <;> rfl

/-- The stretch between the first two regions does not write this buffer. -/
theorem mid_keep_v6 : after hostOps1 V (Proc.devRef .tc main_v6) = V (Proc.devRef .tc main_v6) := by
  after_results_simp <;> rfl

/-- The stretch between the first two regions does not write this buffer. -/
theorem mid_keep_v29 : after hostOps1 V (Proc.devRef .tc main_v29) = V (Proc.devRef .tc main_v29) := by
  after_results_simp <;> rfl

/-- The stretch between the first two regions does not write this buffer. -/
theorem mid_keep_arg3 : after hostOps1 V (Proc.devRef .tc main_arg3) = V (Proc.devRef .tc main_arg3) := by
  after_results_simp <;> rfl

/-- The stretch between the first two regions does not write this buffer. -/
theorem mid_keep_arg4 : after hostOps1 V (Proc.devRef .tc main_arg4) = V (Proc.devRef .tc main_arg4) := by
  after_results_simp <;> rfl

/-- The stretch between the first two regions does not write this buffer. -/
theorem mid_keep_arg5 : after hostOps1 V (Proc.devRef .tc main_arg5) = V (Proc.devRef .tc main_arg5) := by
  after_results_simp <;> rfl

/-! ## Between the third and the fourth region -/

/-- The aggregation of the second dense output over the edges. -/
theorem tail_agg : after hostOps3 V (Proc.devRef .tc main_v58)
    = aggregate64 (V (Proc.devRef .tc main_v45)) (V (Proc.devRef .tc main_v5)) (V (Proc.devRef .tc main_v6)) (V (Proc.devRef .tc main_v29)) := by
  after_results_simp <;> rfl

/-- The stretch before the last region does not write this argument. -/
theorem tail_keep_arg5 : after hostOps3 V (Proc.devRef .tc main_arg5) = V (Proc.devRef .tc main_arg5) := by
  after_results_simp <;> rfl

end Cert.KernelIdeal.Hand

end
-- ==== Proof.DenseSpec.lean ====
/-
  The dense pieces of a two-layer graph convolution, each as ONE function of whole arrays, index by index, over the
  extended reals: a node-feature matrix times a weight matrix (entry (r, j) is the sum over k of x[r, k] · w[k, j]),
  a bias row added to every node's row, and the same followed by the positive part (the maximum with the zero word).
  The sparse pieces between them (gathering along edges, scaling, summing into target nodes) are the same host
  operations in both programs and are never opened.
-/
import Idealize.ShloMosaic.PureOps.Ideal
import Idealize.ShloMosaic.Lib.ValueIdx

noncomputable section

open scoped BigOperators

namespace Cert.Spec

open Idealize.ShloMosaic Idealize.ShloMosaic.ValueIdx

/-- Node features [100000, 128] times first-layer weights [128, 128]. -/
def dense1 (x : FVec Ideal ⟨2, ![100000, 128]⟩ .f32) (w : FVec Ideal ⟨2, ![128, 128]⟩ .f32) : FVec Ideal ⟨2, ![100000, 128]⟩ .f32 :=
  fun i => ∑ k : Fin 128, x (ix2 (i 0) k) * w (ix2 k (i 1))

/-- Hidden features [100000, 128] times second-layer weights [128, 64]. -/
def dense2 (x : FVec Ideal ⟨2, ![100000, 128]⟩ .f32) (w : FVec Ideal ⟨2, ![128, 64]⟩ .f32) : FVec Ideal ⟨2, ![100000, 64]⟩ .f32 :=
  fun i => ∑ k : Fin 128, x (ix2 (i 0) k) * w (ix2 k (i 1))

/-- A bias row added to every node's row, then the maximum with the zero word. -/
def biasRelu (a : FVec Ideal ⟨2, ![100000, 128]⟩ .f32) (b : FVec Ideal ⟨1, ![128]⟩ .f32) : FVec Ideal ⟨2, ![100000, 128]⟩ .f32 :=
  fun i => max (a i + b (ix1 (i 1))) (Ideal.ofBits .f32 0x00000000#32)

/-- A bias row added to every node's row. -/
def biasAdd (a : FVec Ideal ⟨2, ![100000, 64]⟩ .f32) (b : FVec Ideal ⟨1, ![64]⟩ .f32) : FVec Ideal ⟨2, ![100000, 64]⟩ .f32 :=
  fun i => a i + b (ix1 (i 1))

end Cert.Spec

end
-- ==== Proof.Region0.lean ====
/-
  The first dense layer's region: a grid of 20 points, point t holding rows 5000·t … 5000·t + 4999 of the node features and
  the whole weight matrix, and writing the same rows of the product. The body's stored value at (p, q) of a block is the
  sum over k of block[p, k] · w[k, q] (a matrix product into a zero accumulator; the change to a shorter float format on the
  way in is the identity on the extended reals). The blocks tile the array (row r lies in point r / 5000's block), so after
  the region the output array is the whole product, index by index.
-/
import proofs.«105615_j3083786518791_1_alg».proof.Proof.Gen.KernelIdeal.Frame
import proofs.«105615_j3083786518791_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- Left operand index, row coordinate: the output's row. -/
theorem dot0_lhs0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand index, column coordinate: the contraction coordinate. -/
theorem dot0_lhs1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
/-- Right operand index, row coordinate: the contraction coordinate. -/
theorem dot0_rhs0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
/-- Right operand index, column coordinate: the output's column. -/
theorem dot0_rhs1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction's left operand index at output (p, q) and contraction coordinate k is (p, k). -/
theorem dot0_lhs (p : Fin 5000) (q : Fin 128) (k : Fin 128) :
    dot_S5000x128_S128x128_S5000x128_1_0_0_1_n_n.lhsIdx (ix2 p q) ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  funext a
  apply Fin.ext
  match a with
  | ⟨0, _⟩ => exact dot0_lhs0 _ _
  | ⟨1, _⟩ => exact (dot0_lhs1 _ _).trans hk

/-- The contraction's right operand index at output (p, q) and contraction coordinate k is (k, q). -/
theorem dot0_rhs (p : Fin 5000) (q : Fin 128) (k : Fin 128) :
    dot_S5000x128_S128x128_S5000x128_1_0_0_1_n_n.rhsIdx (ix2 p q) ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a
  apply Fin.ext
  match a with
  | ⟨0, _⟩ => exact (dot0_rhs0 _ _).trans hk
  | ⟨1, _⟩ => exact dot0_rhs1 _ _

/-- The body's stored value at (p, q): the sum over k of x[p, k] · w[k, q]. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  rw [dot0_lhs, dot0_rhs]
  rfl

/-- The printed index maps over the grid: the row-block windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem flushed_eq (c : Dev nD) (t : Fin cfg0.N) :
    (dat0 V c).flushed 2 t = ((cfg0.win 2).blk t).view.read (Elt Ideal) (Cert.Spec.dense1 (V c main_arg0) (V c main_arg2)) := by
  show (cfg0.win 2).cut (grid0.coords t) ((dat0 V c).after 2 t) = _
  rw [after0_2]
  unfold out0_2
  rw [View.canon_unit_zero zero_off2]
  simp only [View.ld_unit_zero (S := S5000x128) zero_off2, View.ld_unit_zero (S := S128x128) zero_off2]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Spec.dense1 (V c main_arg0) (V c main_arg2) (((cfg0.win 2).blk t).view.emb (ix2 p q))
  refine (pay_apply _ _ p q).trans ?_
  unfold Cert.Spec.dense1
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have hL : iblk0 V c 0 t (ix2 p k) = V c main_arg0 (ix2 ((((cfg0.win 2).blk t).view.emb (ix2 p q)) 0) k) := by
    show V c main_arg0 (((cfg0.win 0).blk t).view.emb (ix2 p k)) = _
    rw [hx]; rfl
  have hR : iblk0 V c 1 t (ix2 k q) = V c main_arg2 (ix2 k ((((cfg0.win 2).blk t).view.emb (ix2 p q)) 1)) := by
    show V c main_arg2 (((cfg0.win 1).blk t).view.emb (ix2 k q)) = _
    rw [hw]; rfl
  rw [hL, hR]

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array lies in some point's block: row r in point r / 5000's. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the whole product of the arrays the region found. -/
theorem final (c : Dev nD) : (dat0 V c).arrAt 2 cfg0.N = Cert.Spec.dense1 (V c main_arg0) (V c main_arg2) :=
  (dat0 V c).arrAt_eq_of_cover 2 (Cert.Spec.dense1 (V c main_arg0) (V c main_arg2)) (fun t _ => flushed_eq V c t) cover

end Cert.KernelIdeal.Hand.Region0

end
-- ==== Proof.Region1.lean ====
/-
  The first layer's bias region: a grid of 20 points, point t holding rows 5000·t … 5000·t + 4999 of the aggregated
  features and the whole bias row, and writing the same rows of "entry plus the bias of its column, then the maximum with
  the zero word" (the bias row is cast to one row and that row repeated over the block's rows, which at an entry (p, q)
  reads the bias at q). The blocks tile the array, so after the region the output array is that function of the two
  arrays, index by index.
-/
import proofs.«105615_j3083786518791_1_alg».proof.Proof.Gen.KernelIdeal.Frame
import proofs.«105615_j3083786518791_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The body's stored value at (p, q): the block's entry plus the bias at column q, then the maximum with the zero word. -/
theorem pay_apply (b : Vec Ideal S128 .f32) (x : Vec Ideal S5000x128 .f32) (p : Fin 5000) (q : Fin 128) :
    k1_pay1 b x (ix2 p q) = max (x (ix2 p q) + b (ix1 q)) (Ideal.ofBits .f32 0x00000000#32) := by
  unfold k1_pay1
  simp only [maximumf_apply, addf_apply, shapeCast_self, broadcast_apply, broadcastTo_1b_ab_apply, shapeCast_a_1a_apply]
  rfl

/-- The printed index maps over the grid: the row-block windows move with the point, the bias window stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the whole-array function of the arrays as the region finds them. -/
theorem flushed_eq (c : Dev nD) (t : Fin cfg1.N) :
    (dat1 V c).flushed 2 t = ((cfg1.win 2).blk t).view.read (Elt Ideal) (Cert.Spec.biasRelu (V c main_v43) (V c main_arg3)) := by
  show (cfg1.win 2).cut (grid1.coords t) ((dat1 V c).after 2 t) = _
  rw [after1_2]
  unfold out1_2
  rw [View.canon_unit_zero zero_off2]
  simp only [View.ld_unit_zero (S := S5000x128) zero_off2, View.ld_unit_zero (S := S128) zero_off1]
  obtain ⟨e0, e1, e2, e3, e4⟩ := idx_facts t
  funext j
  obtain ⟨p, q, rfl⟩ : ∃ (p : Fin 5000) (q : Fin 128), j = ix2 p q := ⟨j 0, j 1, eq_ix2 j⟩
  show k1_pay1 (iblk1 V c 1 t) (iblk1 V c 0 t) (ix2 p q)
    = Cert.Spec.biasRelu (V c main_v43) (V c main_arg3) (((cfg1.win 2).blk t).view.emb (ix2 p q))
  refine (pay_apply _ _ p q).trans ?_
  unfold Cert.Spec.biasRelu
  have hx : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hb : ((cfg1.win 1).blk t).view.emb (ix1 q) = ix1 ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  have hL : iblk1 V c 0 t (ix2 p q) = V c main_v43 (((cfg1.win 2).blk t).view.emb (ix2 p q)) := by
    show V c main_v43 (((cfg1.win 0).blk t).view.emb (ix2 p q)) = _
    rw [hx] <;> rfl
  have hR : iblk1 V c 1 t (ix1 q) = V c main_arg3 (ix1 ((((cfg1.win 2).blk t).view.emb (ix2 p q)) 1)) := by
    show V c main_arg3 (((cfg1.win 1).blk t).view.emb (ix1 q)) = _
    rw [hb] <;> rfl
  rw [hL, hR]

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every index of the output array lies in some point's block: row r in point r / 5000's. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the whole-array function of the arrays the region found. -/
theorem final (c : Dev nD) : (dat1 V c).arrAt 2 cfg1.N = Cert.Spec.biasRelu (V c main_v43) (V c main_arg3) :=
  (dat1 V c).arrAt_eq_of_cover 2 (Cert.Spec.biasRelu (V c main_v43) (V c main_arg3)) (fun t _ => flushed_eq V c t) cover

end Cert.KernelIdeal.Hand.Region1

end
-- ==== Proof.Region2.lean ====
/-
  The second dense layer's region: a grid of 20 points, point t holding rows 5000·t … 5000·t + 4999 of the hidden features
  and the whole [128, 64] weight matrix, and writing the same rows of the product. The body's stored value at (p, q) of a
  block is the sum over k of block[p, k] · w[k, q] (a matrix product into a zero accumulator; the cast to the same shape
  and the change of float format on the way in are the identity on the extended reals). The blocks tile the array, so
  after the region the output array is the whole product, index by index.
-/
import proofs.«105615_j3083786518791_1_alg».proof.Proof.Gen.KernelIdeal.Frame
import proofs.«105615_j3083786518791_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- Left operand index, row coordinate: the output's row. -/
theorem dot2_lhs0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Left operand index, column coordinate: the contraction coordinate. -/
theorem dot2_lhs1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
/-- Right operand index, row coordinate: the contraction coordinate. -/
theorem dot2_rhs0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
/-- Right operand index, column coordinate: the output's column. -/
theorem dot2_rhs1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The contraction's left operand index at output (p, q) and contraction coordinate k is (p, k). -/
theorem dot2_lhs (p : Fin 5000) (q : Fin 64) (k : Fin 128) :
    dot_S5000x128_S128x64_S5000x64_1_0_0_1_n_n.lhsIdx (ix2 p q) ((contrEquiv1 dot_S5000x128_S128x64_S5000x64_1_0_0_1_n_n 128 rfl rfl).symm k) = ix2 p k := by
  have hk := contrEquiv1_symm_val dot_S5000x128_S128x64_S5000x64_1_0_0_1_n_n 128 rfl rfl k
  funext a
  apply Fin.ext
  match a with
  | ⟨0, _⟩ => exact dot2_lhs0 _ _
  | ⟨1, _⟩ => exact (dot2_lhs1 _ _).trans hk

/-- The contraction's right operand index at output (p, q) and contraction coordinate k is (k, q). -/
theorem dot2_rhs (p : Fin 5000) (q : Fin 64) (k : Fin 128) :
    dot_S5000x128_S128x64_S5000x64_1_0_0_1_n_n.rhsIdx (ix2 p q) ((contrEquiv1 dot_S5000x128_S128x64_S5000x64_1_0_0_1_n_n 128 rfl rfl).symm k) = ix2 k q := by
  have hk := contrEquiv1_symm_val dot_S5000x128_S128x64_S5000x64_1_0_0_1_n_n 128 rfl rfl k
  funext a
  apply Fin.ext
  match a with
  | ⟨0, _⟩ => exact (dot2_rhs0 _ _).trans hk
  | ⟨1, _⟩ => exact dot2_rhs1 _ _

/-- The body's stored value at (p, q): the sum over k of x[p, k] · w[k, q]. -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  rw [dot2_lhs, dot2_rhs]
  simp only [shapeCast_self]
  rfl

/-- The printed index maps over the grid: the row-block windows move with the point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays as the region finds them. -/
theorem flushed_eq (c : Dev nD) (t : Fin cfg2.N) :
    (dat2 V c).flushed 2 t = ((cfg2.win 2).blk t).view.read (Elt Ideal) (Cert.Spec.dense2 (V c main_v44) (V c main_arg4)) := by
  show (cfg2.win 2).cut (grid2.coords t) ((dat2 V c).after 2 t) = _
  rw [after2_2]
  unfold out2_2
  rw [View.canon_unit_zero zero_off2]
  simp only [View.ld_unit_zero (S := S5000x128) zero_off2, View.ld_unit_zero (S := S128x64) zero_off2]
  obtain ⟨e0, e1, e2, e3, e4, e5⟩ := idx_facts t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = Cert.Spec.dense2 (V c main_v44) (V c main_arg4) (((cfg2.win 2).blk t).view.emb (ix2 p q))
  refine (pay_apply _ _ p q).trans ?_
  unfold Cert.Spec.dense2
  refine Finset.sum_congr rfl fun k _ => ?_
  have hx : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  have hL : iblk2 V c 0 t (ix2 p k) = V c main_v44 (ix2 ((((cfg2.win 2).blk t).view.emb (ix2 p q)) 0) k) := by
    show V c main_v44 (((cfg2.win 0).blk t).view.emb (ix2 p k)) = _
    rw [hx]; rfl
  have hR : iblk2 V c 1 t (ix2 k q) = V c main_arg4 (ix2 k ((((cfg2.win 2).blk t).view.emb (ix2 p q)) 1)) := by
    show V c main_arg4 (((cfg2.win 1).blk t).view.emb (ix2 k q)) = _
    rw [hw]; rfl
  rw [hL, hR]

/-- An index of the output array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every index of the output array lies in some point's block: row r in point r / 5000's. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is the whole product of the arrays the region found. -/
theorem final (c : Dev nD) : (dat2 V c).arrAt 2 cfg2.N = Cert.Spec.dense2 (V c main_v44) (V c main_arg4) :=
  (dat2 V c).arrAt_eq_of_cover 2 (Cert.Spec.dense2 (V c main_v44) (V c main_arg4)) (fun t _ => flushed_eq V c t) cover

end Cert.KernelIdeal.Hand.Region2

end
-- ==== Proof.Region3.lean ====
/-
  The second layer's bias region: a grid of 20 points, point t holding rows 5000·t … 5000·t + 4999 of the aggregated
  features and the whole bias row, and writing the same rows of "entry plus the bias of its column" (the bias row is cast to
  one row and that row repeated over the block's rows, which at an entry (p, q) reads the bias at q). The blocks tile the
  array, so after the region the output array is that function of the two arrays, index by index.
-/
import proofs.«105615_j3083786518791_1_alg».proof.Proof.Gen.KernelIdeal.Frame
import proofs.«105615_j3083786518791_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The body's stored value at (p, q): the block's entry plus the bias at column q. -/
theorem pay_apply (b : Vec Ideal S64 .f32) (x : Vec Ideal S5000x64 .f32) (p : Fin 5000) (q : Fin 64) :
    k3_pay1 b x (ix2 p q) = x (ix2 p q) + b (ix1 q) := by
  unfold k3_pay1
  simp only [addf_apply, shapeCast_self, broadcastTo_1b_ab_apply, shapeCast_a_1a_apply]

/-- The printed index maps over the grid: the row-block windows move with the point, the bias window stays. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the whole-array function of the arrays as the region finds them. -/
theorem flushed_eq (c : Dev nD) (t : Fin cfg3.N) :
    (dat3 V c).flushed 2 t = ((cfg3.win 2).blk t).view.read (Elt Ideal) (Cert.Spec.biasAdd (V c main_v58) (V c main_arg5)) := by
  show (cfg3.win 2).cut (grid3.coords t) ((dat3 V c).after 2 t) = _
  rw [after3_2]
  unfold out3_2
  rw [View.canon_unit_zero zero_off2]
  simp only [View.ld_unit_zero (S := S5000x64) zero_off2, View.ld_unit_zero (S := S64) zero_off1]
  obtain ⟨e0, e1, e2, e3, e4⟩ := idx_facts t
  funext j
  obtain ⟨p, q, rfl⟩ : ∃ (p : Fin 5000) (q : Fin 64), j = ix2 p q := ⟨j 0, j 1, eq_ix2 j⟩
  show k3_pay1 (iblk3 V c 1 t) (iblk3 V c 0 t) (ix2 p q)
    = Cert.Spec.biasAdd (V c main_v58) (V c main_arg5) (((cfg3.win 2).blk t).view.emb (ix2 p q))
  refine (pay_apply _ _ p q).trans ?_
  unfold Cert.Spec.biasAdd
  have hx : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have hb : ((cfg3.win 1).blk t).view.emb (ix1 q) = ix1 ((((cfg3.win 2).blk t).view.emb (ix2 p q)) 1) := by
    funext a; apply Fin.ext
    match a with
    | ⟨0, _⟩ => show win3_1.index t (0 : Fin 1) * 64 + 1 * q.val = win3_2.index t (1 : Fin 2) * 64 + 1 * q.val; omega
  have hL : iblk3 V c 0 t (ix2 p q) = V c main_v58 (((cfg3.win 2).blk t).view.emb (ix2 p q)) := by
    show V c main_v58 (((cfg3.win 0).blk t).view.emb (ix2 p q)) = _
    rw [hx] <;> rfl
  have hR : iblk3 V c 1 t (ix1 q) = V c main_arg5 (ix1 ((((cfg3.win 2).blk t).view.emb (ix2 p q)) 1)) := by
    show V c main_arg5 (((cfg3.win 1).blk t).view.emb (ix1 q)) = _
    rw [hb] <;> rfl
  rw [hL, hR]

/-- An index of the output array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- Every index of the output array lies in some point's block: row r in point r / 5000's. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the output array is the whole-array function of the arrays the region found. -/
theorem final (c : Dev nD) : (dat3 V c).arrAt 2 cfg3.N = Cert.Spec.biasAdd (V c main_v58) (V c main_arg5) :=
  (dat3 V c).arrAt_eq_of_cover 2 (Cert.Spec.biasAdd (V c main_v58) (V c main_arg5)) (fun t _ => flushed_eq V c t) cover

end Cert.KernelIdeal.Hand.Region3

end
-- ==== Proof.KernelValue.lean ====
/-
  What the kernel program leaves in its result array, as ONE function of the six arguments. The buffer contents at the
  program's boundaries are a fold: a host stretch rewrites the buffers its operations write, a region rewrites its output
  array and leaves every other buffer. Walking the fold back from the result buffer: the last region adds the second bias
  to the second aggregation; that aggregation gathers the second dense product, which the third region computed from the
  hidden features; those are the first region-with-bias's "plus bias, positive part" of the first aggregation of the
  first dense product of the node features. The edge sources, targets and weights are computed once, before the first
  region, and no later stretch or region writes their buffers; no stretch or region writes an argument.
-/
import proofs.«105615_j3083786518791_1_alg».proof.Proof.Gen.KernelIdeal.Frame
import proofs.«105615_j3083786518791_1_alg».proof.Proof.HostStretch
import proofs.«105615_j3083786518791_1_alg».proof.Proof.Region0
import proofs.«105615_j3083786518791_1_alg».proof.Proof.Region1
import proofs.«105615_j3083786518791_1_alg».proof.Proof.Region2
import proofs.«105615_j3083786518791_1_alg».proof.Proof.Region3

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

/-- The whole network on the extended reals, from the six argument arrays: two rounds of "dense product, aggregation over
    the edges, bias", the first followed by the positive part. -/
def network (x : FVec Ideal S100000x128 .f32) (e : IVec S2x600000 32) (w1 : FVec Ideal S128x128 .f32) (b1 : FVec Ideal S128 .f32)
    (w2 : FVec Ideal S128x64 .f32) (b2 : FVec Ideal S64 .f32) : FVec Ideal S100000x64 .f32 :=
  Cert.Spec.biasAdd
    (aggregate64
      (Cert.Spec.dense2
        (Cert.Spec.biasRelu
          (aggregate128 (Cert.Spec.dense1 x w1) (srcAll e) (dstAll e) (edgeNorm (F := Ideal) (srcAll e) (dstAll e)))
          b1)
        w2)
      (srcAll e) (dstAll e) (edgeNorm (F := Ideal) (srcAll e) (dstAll e)))
    b2

variable (m : (ℓ : Loc nD τ sig) → Buf (Elt Ideal) ℓ) (ρ : Dev nD → PrngReg) (c : Dev nD)

/-! ## At the first region's entry -/

theorem w3_src : W3 m ρ c (Proc.devRef .tc main_v5) = srcAll (m ((c : Thread nD τ).loc main_arg1)) := pre_src (W0 m ρ c)
theorem w3_dst : W3 m ρ c (Proc.devRef .tc main_v6) = dstAll (m ((c : Thread nD τ).loc main_arg1)) := pre_dst (W0 m ρ c)
theorem w3_norm : W3 m ρ c (Proc.devRef .tc main_v29) = edgeNorm (F := Ideal) (srcAll (m ((c : Thread nD τ).loc main_arg1))) (dstAll (m ((c : Thread nD τ).loc main_arg1))) :=
  pre_norm (W0 m ρ c)
theorem w3_arg0 : W3 m ρ c (Proc.devRef .tc main_arg0) = (m ((c : Thread nD τ).loc main_arg0)) := pre_keep_arg0 (W0 m ρ c)
theorem w3_arg2 : W3 m ρ c (Proc.devRef .tc main_arg2) = (m ((c : Thread nD τ).loc main_arg2)) := pre_keep_arg2 (W0 m ρ c)
theorem w3_arg3 : W3 m ρ c (Proc.devRef .tc main_arg3) = (m ((c : Thread nD τ).loc main_arg3)) := pre_keep_arg3 (W0 m ρ c)
theorem w3_arg4 : W3 m ρ c (Proc.devRef .tc main_arg4) = (m ((c : Thread nD τ).loc main_arg4)) := pre_keep_arg4 (W0 m ρ c)
theorem w3_arg5 : W3 m ρ c (Proc.devRef .tc main_arg5) = (m ((c : Thread nD τ).loc main_arg5)) := pre_keep_arg5 (W0 m ρ c)

/-! ## After the first region: the first dense product; everything else as entered -/

theorem w4_dense : W4 m ρ c (Proc.devRef .tc main_v30) = Cert.Spec.dense1 (m ((c : Thread nD τ).loc main_arg0)) (m ((c : Thread nD τ).loc main_arg2)) :=
  (W4_arr m ρ c 2).trans ((Region0.final (V3 m ρ) c).trans
    (congrArg₂ Cert.Spec.dense1 (w3_arg0 m ρ c) (w3_arg2 m ρ c)))
theorem w4_src : W4 m ρ c (Proc.devRef .tc main_v5) = srcAll (m ((c : Thread nD τ).loc main_arg1)) := (W4_of_ne m ρ c main_v5 (by decide)).trans (w3_src m ρ c)
theorem w4_dst : W4 m ρ c (Proc.devRef .tc main_v6) = dstAll (m ((c : Thread nD τ).loc main_arg1)) := (W4_of_ne m ρ c main_v6 (by decide)).trans (w3_dst m ρ c)
theorem w4_norm : W4 m ρ c (Proc.devRef .tc main_v29) = edgeNorm (F := Ideal) (srcAll (m ((c : Thread nD τ).loc main_arg1))) (dstAll (m ((c : Thread nD τ).loc main_arg1))) :=
  (W4_of_ne m ρ c main_v29 (by decide)).trans (w3_norm m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## After the first aggregation -/

/-- The first aggregation, of the first dense product. -/
abbrev agg1 : FVec Ideal S100000x128 .f32 :=
  aggregate128 (Cert.Spec.dense1 (m ((c : Thread nD τ).loc main_arg0)) (m ((c : Thread nD τ).loc main_arg2))) (srcAll (m ((c : Thread nD τ).loc main_arg1))) (dstAll (m ((c : Thread nD τ).loc main_arg1)))
    (edgeNorm (F := Ideal) (srcAll (m ((c : Thread nD τ).loc main_arg1))) (dstAll (m ((c : Thread nD τ).loc main_arg1))))

theorem w5_agg : W5 m ρ c (Proc.devRef .tc main_v43) = agg1 m c := by
  refine (mid_agg (W4 m ρ c)).trans ?_
  rw [w4_dense m ρ c, w4_src m ρ c, w4_dst m ρ c, w4_norm m ρ c]
theorem w5_src : W5 m ρ c (Proc.devRef .tc main_v5) = srcAll (m ((c : Thread nD τ).loc main_arg1)) := (mid_keep_v5 (W4 m ρ c)).trans (w4_src m ρ c)
theorem w5_dst : W5 m ρ c (Proc.devRef .tc main_v6) = dstAll (m ((c : Thread nD τ).loc main_arg1)) := (mid_keep_v6 (W4 m ρ c)).trans (w4_dst m ρ c)
theorem w5_norm : W5 m ρ c (Proc.devRef .tc main_v29) = edgeNorm (F := Ideal) (srcAll (m ((c : Thread nD τ).loc main_arg1))) (dstAll (m ((c : Thread nD τ).loc main_arg1))) :=
  (mid_keep_v29 (W4 m ρ c)).trans (w4_norm m ρ c)
theorem w5_arg3 : W5 m ρ c (Proc.devRef .tc main_arg3) = (m ((c : Thread nD τ).loc main_arg3)) := (mid_keep_arg3 (W4 m ρ c)).trans (w4_arg3 m ρ c)
theorem w5_arg4 : W5 m ρ c (Proc.devRef .tc main_arg4) = (m ((c : Thread nD τ).loc main_arg4)) := (mid_keep_arg4 (W4 m ρ c)).trans (w4_arg4 m ρ c)
theorem w5_arg5 : W5 m ρ c (Proc.devRef .tc main_arg5) = (m ((c : Thread nD τ).loc main_arg5)) := (mid_keep_arg5 (W4 m ρ c)).trans (w4_arg5 m ρ c)

/-! ## After the first bias region: the hidden features -/

/-- The hidden features. -/
abbrev hidden : FVec Ideal S100000x128 .f32 := Cert.Spec.biasRelu (agg1 m c) (m ((c : Thread nD τ).loc main_arg3))

theorem w6_hidden : W6 m ρ c (Proc.devRef .tc main_v44) = hidden m c :=
  (W6_arr m ρ c 2).trans ((Region1.final (V5 m ρ) c).trans
    (congrArg₂ Cert.Spec.biasRelu (w5_agg m ρ c) (w5_arg3 m ρ c)))
theorem w6_src : W6 m ρ c (Proc.devRef .tc main_v5) = srcAll (m ((c : Thread nD τ).loc main_arg1)) := (W6_of_ne m ρ c main_v5 (by decide)).trans (w5_src m ρ c)
theorem w6_dst : W6 m ρ c (Proc.devRef .tc main_v6) = dstAll (m ((c : Thread nD τ).loc main_arg1)) := (W6_of_ne m ρ c main_v6 (by decide)).trans (w5_dst m ρ c)
theorem w6_norm : W6 m ρ c (Proc.devRef .tc main_v29) = edgeNorm (F := Ideal) (srcAll (m ((c : Thread nD τ).loc main_arg1))) (dstAll (m ((c : Thread nD τ).loc main_arg1))) :=
  (W6_of_ne m ρ c main_v29 (by decide)).trans (w5_norm m ρ c)
theorem w6_arg4 : W6 m ρ c (Proc.devRef .tc main_arg4) = (m ((c : Thread nD τ).loc main_arg4)) := (W6_of_ne m ρ c main_arg4 (by decide)).trans (w5_arg4 m ρ c)
theorem w6_arg5 : W6 m ρ c (Proc.devRef .tc main_arg5) = (m ((c : Thread nD τ).loc main_arg5)) := (W6_of_ne m ρ c main_arg5 (by decide)).trans (w5_arg5 m ρ c)

/-! ## After the second dense region -/

theorem w7_dense : W7 m ρ c (Proc.devRef .tc main_v45) = Cert.Spec.dense2 (hidden m c) (m ((c : Thread nD τ).loc main_arg4)) :=
  (W7_arr m ρ c 2).trans ((Region2.final (V6 m ρ) c).trans
    (congrArg₂ Cert.Spec.dense2 (w6_hidden m ρ c) (w6_arg4 m ρ c)))
theorem w7_src : W7 m ρ c (Proc.devRef .tc main_v5) = srcAll (m ((c : Thread nD τ).loc main_arg1)) := (W7_of_ne m ρ c main_v5 (by decide)).trans (w6_src m ρ c)
theorem w7_dst : W7 m ρ c (Proc.devRef .tc main_v6) = dstAll (m ((c : Thread nD τ).loc main_arg1)) := (W7_of_ne m ρ c main_v6 (by decide)).trans (w6_dst m ρ c)
theorem w7_norm : W7 m ρ c (Proc.devRef .tc main_v29) = edgeNorm (F := Ideal) (srcAll (m ((c : Thread nD τ).loc main_arg1))) (dstAll (m ((c : Thread nD τ).loc main_arg1))) :=
  (W7_of_ne m ρ c main_v29 (by decide)).trans (w6_norm m ρ c)
theorem w7_arg5 : W7 m ρ c (Proc.devRef .tc main_arg5) = (m ((c : Thread nD τ).loc main_arg5)) := (W7_of_ne m ρ c main_arg5 (by decide)).trans (w6_arg5 m ρ c)

/-! ## After the second aggregation -/

/-- The second aggregation, of the second dense product. -/
abbrev agg2 : FVec Ideal S100000x64 .f32 :=
  aggregate64 (Cert.Spec.dense2 (hidden m c) (m ((c : Thread nD τ).loc main_arg4))) (srcAll (m ((c : Thread nD τ).loc main_arg1))) (dstAll (m ((c : Thread nD τ).loc main_arg1)))
    (edgeNorm (F := Ideal) (srcAll (m ((c : Thread nD τ).loc main_arg1))) (dstAll (m ((c : Thread nD τ).loc main_arg1))))

theorem w8_agg : W8 m ρ c (Proc.devRef .tc main_v58) = agg2 m c := by
  refine (tail_agg (W7 m ρ c)).trans ?_
  rw [w7_dense m ρ c, w7_src m ρ c, w7_dst m ρ c, w7_norm m ρ c]
theorem w8_arg5 : W8 m ρ c (Proc.devRef .tc main_arg5) = (m ((c : Thread nD τ).loc main_arg5)) := (tail_keep_arg5 (W7 m ρ c)).trans (w7_arg5 m ρ c)

/-! ## After the last region: the result -/

/-- The result array after the program is the network of the six arguments. -/
theorem w9_result : W9 m ρ c (Proc.devRef .tc main_v59)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Region3.final (V8 m ρ) c).trans
    (congrArg₂ Cert.Spec.biasAdd (w8_agg m ρ c) (w8_arg5 m ρ c)))

end Cert.KernelIdeal.Hand

end
-- ==== Proof.HostSpecR.lean ====
/-
  The sparse part of a graph-convolution layer as named functions of whole arrays, spelt with this program's own
  shapes and dimension records: the edge sources and targets followed by one self-loop per node; a possibly negative node
  index wrapped by the node count; a node's degree (ones summed into the edges' targets) and its inverse square root where
  the degree is positive, else zero; an edge's weight (the product of its two endpoints' inverse roots); and the
  aggregation of a feature matrix over the edges (each edge's source row, scaled by the edge's weight, summed into the
  edge's target row). Both programs run exactly these host operations, so the proof only ever compares their arguments.
-/
import proofs.«105615_j3083786518791_1_alg».proof.ReferenceIdeal

noncomputable section

namespace Cert.ReferenceIdeal.Hand

open Cert.ReferenceIdeal Idealize.ShloMosaic

variable {F : FTy → Type} [FloatOps F]
variable [Facts₀]
open Facts₀

/-- The edges' sources, then the self-loops 0 … 99999. -/
def srcAll (e : IVec S2x600000 32) : IVec S700000 32 :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The edges' targets, then the self-loops 0 … 99999. -/
def dstAll (e : IVec S2x600000 32) : IVec S700000 32 :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- A node index as a gather start: a negative one wrapped by the node count, as a column. -/
def wrapIdx (x : IVec S700000 32) : IVec S700000x1 32 :=
  broadcastInDim S700000x1 ![0] bcast_S700000_S700000x1_0 (select (cmpi .slt x (broadcastInDim S700000 ![] bcast_S_S700000 (constantI S_ 32 0#32))) (addi x (broadcastInDim S700000 ![] bcast_S_S700000 (constantI S_ 32 100000#32))) x)

/-- A node's degree: ones summed into the targets. -/
def degree (d : IVec S700000 32) : FVec F S100000 .f32 :=
  Host.scatterAdd scatter_S100000_S700000x1_S700000_n_0_0_1 (broadcastInDim S100000 ![] bcast_S_S100000 (constant S_ .f32 0x00000000#32)) (broadcastInDim S700000x1 ![0] bcast_S700000_S700000x1_0 d) (broadcastInDim S700000 ![] bcast_S_S700000 (constant S_ .f32 0x3F800000#32))

/-- The inverse square root of the degree where it is positive, zero elsewhere. -/
def degInv (d : IVec S700000 32) : FVec F S100000 .f32 :=
  select (cmpf (F := F) .ogt (degree (F := F) d) (broadcastInDim S100000 ![] bcast_S_S100000 (constant S_ .f32 0x00000000#32))) (Host.rsqrt (degree (F := F) d)) (broadcastInDim S100000 ![] bcast_S_S100000 (id (constant S_ .f32 0x00000000#32)))

/-- An edge's weight: the product of its endpoints' inverse roots. -/
def edgeNorm (s d : IVec S700000 32) : FVec F S700000 .f32 :=
  mulf (Host.gather gather_S100000_S700000x1_S700000_n_0_n_n_0_1_1 (degInv (F := F) d) (wrapIdx s)) (Host.gather gather_S100000_S700000x1_S700000_n_0_n_n_0_1_1 (degInv (F := F) d) (wrapIdx d))

/-- Aggregation of 128-wide rows over the edges. -/
def aggregate128 (h : FVec F S100000x128 .f32) (s d : IVec S700000 32) (n : FVec F S700000 .f32) : FVec F S100000x128 .f32 :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d) (mulf (Host.gather gather_S100000x128_S700000x1_S700000x128_1_0_n_n_0_1_1128 h (wrapIdx s)) (broadcastInDim S700000x128 ![0, 1] bcast_S700000x1_S700000x128_0_1 (broadcastInDim S700000x1 ![0] bcast_S700000_S700000x1_0 n)))

/-- Aggregation of 64-wide rows over the edges. -/
def aggregate64 (h : FVec F S100000x64 .f32) (s d : IVec S700000 32) (n : FVec F S700000 .f32) : FVec F S100000x64 .f32 :=
  Host.scatterAdd scatter_S100000x64_S700000x1_S700000x64_1_0_0_1 (broadcastInDim S100000x64 ![] bcast_S_S100000x64 (constant S_ .f32 0x00000000#32)) (broadcastInDim S700000x1 ![0] bcast_S700000_S700000x1_0 d) (mulf (Host.gather gather_S100000x64_S700000x1_S700000x64_1_0_n_n_0_1_164 h (wrapIdx s)) (broadcastInDim S700000x64 ![0, 1] bcast_S700000x1_S700000x64_0_1 (broadcastInDim S700000x1 ![0] bcast_S700000_S700000x1_0 n)))

end Cert.ReferenceIdeal.Hand

end
-- ==== Proof.RefValue.lean ====
/-
  The reference program's result as ONE function of the six arguments, in the same words as the kernel's. Its run ends
  with the result at the operations' composed term; folded into the named sparse functions (sources, targets, edge weights,
  the two aggregations) that term is "second bias added to the second aggregation of the second product of the positive
  part of (first bias added to the first aggregation of the first product)". On the extended reals the host's two matrix
  products are the spec's dense products (the same sum over the contracted axis), and its bias additions (the bias row
  laid out as one row and repeated over the nodes) and its maximum with a repeated zero are the spec's pointwise functions.
-/
import proofs.«105615_j3083786518791_1_alg».proof.Proof.RefRunP
import proofs.«105615_j3083786518791_1_alg».proof.Proof.HostSpecR
import proofs.«105615_j3083786518791_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx

/-- The reference's operations, folded: two rounds of "host matrix product, aggregation over the edges, bias", the first
    followed by the maximum with zero. -/
def networkHost {F : FTy → Type} [FloatOps F] (x : FVec F S100000x128 .f32) (e : IVec S2x600000 32) (w1 : FVec F S128x128 .f32)
    (b1 : FVec F S128 .f32) (w2 : FVec F S128x64 .f32) (b2 : FVec F S64 .f32) : FVec F S100000x64 .f32 :=
  addf (aggregate64 (Host.dotGeneral dot_S100000x128_S128x64_S100000x64_1_0_0_1_n_n none (maximumf (addf (aggregate128 (Host.dotGeneral dot_S100000x128_S128x128_S100000x128_1_0_0_1_n_n none x w1) (srcAll e) (dstAll e) (edgeNorm (F := F) (srcAll e) (dstAll e))) (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2) (srcAll e) (dstAll e) (edgeNorm (F := F) (srcAll e) (dstAll e))) (broadcastInDim S100000x64 ![0, 1] bcast_S1x64_S100000x64_0_1 (broadcastInDim S1x64 ![1] bcast_S64_S1x64_1 b2))

/-- The run's composed term is the folded one. -/
theorem res_eq_host {F : FTy → Type} [FloatOps F] (m : (ℓ : Loc nD τ sig) → Buf (Elt F) ℓ) (c : Dev nD) :
    Cert.ReferenceIdeal.ValueP.res_main_v90 m c
      = networkHost (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90
  rfl

/-- Left operand index, row coordinate: the output's row. -/
theorem rdot1_lhs0 (j : S100000x128.Idx) (q : dot_S100000x128_S128x128_S100000x128_1_0_0_1_n_n.contr.Idx) : (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- Left operand index, column coordinate: the contraction coordinate. -/
theorem rdot1_lhs1 (j : S100000x128.Idx) (q : dot_S100000x128_S128x128_S100000x128_1_0_0_1_n_n.contr.Idx) : (dot_S100000x128_S128x128_S100000x128_1_0_0_1_n_n.lhsIdx j q 1).val = (q ⟨0, by decide⟩).val :=
  dot_S100000x128_S128x128_S100000x128_1_0_0_1_n_n.lhsIdx_val_of_single rfl j q
/-- Right operand index, row coordinate: the contraction coordinate. -/
theorem rdot1_rhs0 (j : S100000x128.Idx) (q : dot_S100000x128_S128x128_S100000x128_1_0_0_1_n_n.contr.Idx) : (dot_S100000x128_S128x128_S100000x128_1_0_0_1_n_n.rhsIdx j q 0).val = (q ⟨0, by decide⟩).val :=
  dot_S100000x128_S128x128_S100000x128_1_0_0_1_n_n.rhsIdx_val_of_single rfl j q
/-- Right operand index, column coordinate: the output's column. -/
theorem rdot1_rhs1 (j : S100000x128.Idx) (q : dot_S100000x128_S128x128_S100000x128_1_0_0_1_n_n.contr.Idx) : (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of the two matrices is the spec's dense product: at (r, j), the sum over k of x[r, k] · w[k, j]. -/
theorem rdot1_eq (x : FVec Ideal S100000x128 .f32) (w : FVec Ideal S128x128 .f32) :
    Host.dotGeneral dot_S100000x128_S128x128_S100000x128_1_0_0_1_n_n none x w = Cert.Spec.dense1 x w := by
  funext i
  simp only [Host.dotGeneral]
  rw [Ideal.dotGeneral_apply, ← Equiv.sum_comp (contrEquiv1 dot_S100000x128_S128x128_S100000x128_1_0_0_1_n_n 128 rfl rfl).symm]
  unfold Cert.Spec.dense1
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (i 0) k := funext fun a => Fin.ext (by
    match a with
    | ⟨0, _⟩ => exact rdot1_lhs0 _ _
    | ⟨1, _⟩ => exact (rdot1_lhs1 _ _).trans hk)
  have er : dot_S100000x128_S128x128_S100000x128_1_0_0_1_n_n.rhsIdx i ((contrEquiv1 dot_S100000x128_S128x128_S100000x128_1_0_0_1_n_n 128 rfl rfl).symm k) = ix2 k (i 1) := funext fun a => Fin.ext (by
    match a with
    | ⟨0, _⟩ => exact (rdot1_rhs0 _ _).trans hk
    | ⟨1, _⟩ => exact rdot1_rhs1 _ _)
  rw [el, er] <;> rfl

/-- Left operand index, row coordinate: the output's row. -/
theorem rdot2_lhs0 (j : S100000x64.Idx) (q : dot_S100000x128_S128x64_S100000x64_1_0_0_1_n_n.contr.Idx) : (dot_S100000x128_S128x64_S100000x64_1_0_0_1_n_n.lhsIdx j q 0).val = (j 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- Left operand index, column coordinate: the contraction coordinate. -/
theorem rdot2_lhs1 (j : S100000x64.Idx) (q : dot_S100000x128_S128x64_S100000x64_1_0_0_1_n_n.contr.Idx) : (dot_S100000x128_S128x64_S100000x64_1_0_0_1_n_n.lhsIdx j q 1).val = (q ⟨0, by decide⟩).val :=
  dot_S100000x128_S128x64_S100000x64_1_0_0_1_n_n.lhsIdx_val_of_single rfl j q
/-- Right operand index, row coordinate: the contraction coordinate. -/
theorem rdot2_rhs0 (j : S100000x64.Idx) (q : dot_S100000x128_S128x64_S100000x64_1_0_0_1_n_n.contr.Idx) : (dot_S100000x128_S128x64_S100000x64_1_0_0_1_n_n.rhsIdx j q 0).val = (q ⟨0, by decide⟩).val :=
  dot_S100000x128_S128x64_S100000x64_1_0_0_1_n_n.rhsIdx_val_of_single rfl j q
/-- Right operand index, column coordinate: the output's column. -/
theorem rdot2_rhs1 (j : S100000x64.Idx) (q : dot_S100000x128_S128x64_S100000x64_1_0_0_1_n_n.contr.Idx) : (dot_S100000x128_S128x64_S100000x64_1_0_0_1_n_n.rhsIdx j q 1).val = (j 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product of the two matrices is the spec's dense product: at (r, j), the sum over k of x[r, k] · w[k, j]. -/
theorem rdot2_eq (x : FVec Ideal S100000x128 .f32) (w : FVec Ideal S128x64 .f32) :
    Host.dotGeneral dot_S100000x128_S128x64_S100000x64_1_0_0_1_n_n none x w = Cert.Spec.dense2 x w := by
  funext i
  simp only [Host.dotGeneral]
  rw [Ideal.dotGeneral_apply, ← Equiv.sum_comp (contrEquiv1 dot_S100000x128_S128x64_S100000x64_1_0_0_1_n_n 128 rfl rfl).symm]
  unfold Cert.Spec.dense2
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = ix2 (i 0) k := funext fun a => Fin.ext (by
    match a with
    | ⟨0, _⟩ => exact rdot2_lhs0 _ _
    | ⟨1, _⟩ => exact (rdot2_lhs1 _ _).trans hk)
  have er : dot_S100000x128_S128x64_S100000x64_1_0_0_1_n_n.rhsIdx i ((contrEquiv1 dot_S100000x128_S128x64_S100000x64_1_0_0_1_n_n 128 rfl rfl).symm k) = ix2 k (i 1) := funext fun a => Fin.ext (by
    match a with
    | ⟨0, _⟩ => exact (rdot2_rhs0 _ _).trans hk
    | ⟨1, _⟩ => exact rdot2_rhs1 _ _)
  rw [el, er] <;> rfl

/-- The bias row laid out as one row and repeated over the nodes reads, at (r, j), the bias at j. -/
theorem bias128_apply (b : FVec Ideal S128 .f32) (i : S100000x128.Idx) :
    broadcastInDim S100000x128 ![0, 1] bcast_S1x128_S100000x128_0_1 (broadcastInDim S1x128 ![1] bcast_S128_S1x128_1 b) i = b (ix1 (i 1)) := by
  generalize hy : broadcastInDim S1x128 ![1] bcast_S128_S1x128_1 b = y
  refine (broadcastInDim_apply _ bcast_S1x128_S100000x128_0_1 y i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  subst hy
  exact broadcastInDim_apply _ bcast_S128_S1x128_1 b (ix2 (0 : Fin 1) (i 1)) (ix1 (i 1)) (fun a => match a with
    | ⟨0, _⟩ => by show (i 1).val = if (128 : Nat) = 1 then 0 else (i 1).val; rw [if_neg (by decide)])

/-- The same for the 64-wide bias. -/
theorem bias64_apply (b : FVec Ideal S64 .f32) (i : S100000x64.Idx) :
    broadcastInDim S100000x64 ![0, 1] bcast_S1x64_S100000x64_0_1 (broadcastInDim S1x64 ![1] bcast_S64_S1x64_1 b) i = b (ix1 (i 1)) := by
  generalize hy : broadcastInDim S1x64 ![1] bcast_S64_S1x64_1 b = y
  refine (broadcastInDim_apply _ bcast_S1x64_S100000x64_0_1 y i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  subst hy
  exact broadcastInDim_apply _ bcast_S64_S1x64_1 b (ix2 (0 : Fin 1) (i 1)) (ix1 (i 1)) (fun a => match a with
    | ⟨0, _⟩ => by show (i 1).val = if (64 : Nat) = 1 then 0 else (i 1).val; rw [if_neg (by decide)])

/-- The zero constant repeated over the array reads the zero word everywhere. -/
theorem zero128_apply (i : S100000x128.Idx) :
    broadcastInDim S100000x128 ![] bcast_S_S100000x128 (constant (F := Ideal) S_ .f32 0x00000000#32) i = Ideal.ofBits .f32 0x00000000#32 := by
  generalize hy : constant (F := Ideal) S_ .f32 0x00000000#32 = y
  refine (broadcastInDim_apply _ bcast_S_S100000x128 y i ix0 (fun a => a.elim0)).trans ?_
  subst hy
  rfl

/-- Adding the laid-out bias and taking the maximum with the repeated zero is the spec's "bias, positive part". -/
theorem biasRelu_eq (a : FVec Ideal S100000x128 .f32) (b : FVec Ideal S128 .f32) :
    maximumf (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32)) = Cert.Spec.biasRelu a b := by
  funext i
  unfold Cert.Spec.biasRelu
  rw [maximumf_apply, addf_apply, bias128_apply, zero128_apply]

/-- Adding the laid-out bias is the spec's "bias". -/
theorem biasAdd_eq (a : FVec Ideal S100000x64 .f32) (b : FVec Ideal S64 .f32) :
    addf a (broadcastInDim S100000x64 ![0, 1] bcast_S1x64_S100000x64_0_1 (broadcastInDim S1x64 ![1] bcast_S64_S1x64_1 b)) = Cert.Spec.biasAdd a b := by
  funext i
  unfold Cert.Spec.biasAdd
  rw [addf_apply, bias64_apply]

/-- The reference's network in the spec's words, over this program's sparse functions. -/
def network (x : FVec Ideal S100000x128 .f32) (e : IVec S2x600000 32) (w1 : FVec Ideal S128x128 .f32) (b1 : FVec Ideal S128 .f32)
    (w2 : FVec Ideal S128x64 .f32) (b2 : FVec Ideal S64 .f32) : FVec Ideal S100000x64 .f32 :=
  Cert.Spec.biasAdd
    (aggregate64
      (Cert.Spec.dense2
        (Cert.Spec.biasRelu
          (aggregate128 (Cert.Spec.dense1 x w1) (srcAll e) (dstAll e) (edgeNorm (F := Ideal) (srcAll e) (dstAll e)))
          b1)
        w2)
      (srcAll e) (dstAll e) (edgeNorm (F := Ideal) (srcAll e) (dstAll e)))
    b2

/-- On the extended reals the folded term is the network in the spec's words. -/
theorem host_eq (x : FVec Ideal S100000x128 .f32) (e : IVec S2x600000 32) (w1 : FVec Ideal S128x128 .f32) (b1 : FVec Ideal S128 .f32)
    (w2 : FVec Ideal S128x64 .f32) (b2 : FVec Ideal S64 .f32) : networkHost x e w1 b1 w2 b2 = network x e w1 b1 w2 b2 := by
  unfold networkHost network
  rw [rdot1_eq, biasRelu_eq, rdot2_eq, biasAdd_eq]

/-- The reference's result term, on the extended reals, is the network of the six arguments. -/
theorem res_eq (m : (ℓ : Loc nD τ sig) → Buf (Elt Ideal) ℓ) (c : Dev nD) :
    Cert.ReferenceIdeal.ValueP.res_main_v90 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (res_eq_host m c).trans (host_eq _ _ _ _ _ _)

end Cert.ReferenceIdeal.Hand

end
-- ==== Proof.Bridge.lean ====
/-
  The two programs print the same shapes and the same dimension records for their sparse operations, each under its own
  names. The sparse functions built from them (sources, targets, edge weights, the two aggregations) are therefore the same
  functions, and the network spelt over one program's names is the network spelt over the other's.
-/
import proofs.«105615_j3083786518791_1_alg».proof.Proof.KernelValue
import proofs.«105615_j3083786518791_1_alg».proof.Proof.RefValue

set_option maxRecDepth 16384

noncomputable section

namespace Cert.Bridge

open Idealize.ShloMosaic

theorem srcAll_eq (e : IVec Cert.KernelIdeal.S2x600000 32) :
    Cert.ReferenceIdeal.Hand.srcAll e = Cert.KernelIdeal.Hand.srcAll e := rfl

theorem dstAll_eq (e : IVec Cert.KernelIdeal.S2x600000 32) :
    Cert.ReferenceIdeal.Hand.dstAll e = Cert.KernelIdeal.Hand.dstAll e := rfl

theorem wrapIdx_eq (x : IVec Cert.KernelIdeal.S700000 32) :
    Cert.ReferenceIdeal.Hand.wrapIdx x = Cert.KernelIdeal.Hand.wrapIdx x := rfl

theorem degree_eq (d : IVec Cert.KernelIdeal.S700000 32) :
    Cert.ReferenceIdeal.Hand.degree (F := Ideal) d = Cert.KernelIdeal.Hand.degree (F := Ideal) d := rfl

theorem degInv_eq (d : IVec Cert.KernelIdeal.S700000 32) :
    Cert.ReferenceIdeal.Hand.degInv (F := Ideal) d = Cert.KernelIdeal.Hand.degInv (F := Ideal) d := by
  unfold Cert.ReferenceIdeal.Hand.degInv Cert.KernelIdeal.Hand.degInv
  rw [degree_eq] <;> rfl

theorem edgeNorm_eq (s d : IVec Cert.KernelIdeal.S700000 32) :
    Cert.ReferenceIdeal.Hand.edgeNorm (F := Ideal) s d = Cert.KernelIdeal.Hand.edgeNorm (F := Ideal) s d := by
  unfold Cert.ReferenceIdeal.Hand.edgeNorm Cert.KernelIdeal.Hand.edgeNorm
  rw [degInv_eq, wrapIdx_eq, wrapIdx_eq] <;> rfl

theorem aggregate128_eq (h : FVec Ideal Cert.KernelIdeal.S100000x128 .f32) (s d : IVec Cert.KernelIdeal.S700000 32)
    (n : FVec Ideal Cert.KernelIdeal.S700000 .f32) :
    Cert.ReferenceIdeal.Hand.aggregate128 h s d n = Cert.KernelIdeal.Hand.aggregate128 h s d n := by
  unfold Cert.ReferenceIdeal.Hand.aggregate128 Cert.KernelIdeal.Hand.aggregate128
  rw [wrapIdx_eq] <;> rfl

theorem aggregate64_eq (h : FVec Ideal Cert.KernelIdeal.S100000x64 .f32) (s d : IVec Cert.KernelIdeal.S700000 32)
    (n : FVec Ideal Cert.KernelIdeal.S700000 .f32) :
    Cert.ReferenceIdeal.Hand.aggregate64 h s d n = Cert.KernelIdeal.Hand.aggregate64 h s d n := by
  unfold Cert.ReferenceIdeal.Hand.aggregate64 Cert.KernelIdeal.Hand.aggregate64
  rw [wrapIdx_eq] <;> rfl

/-- The network over the reference's names is the network over the kernel's. -/
theorem network_eq (x : FVec Ideal Cert.KernelIdeal.S100000x128 .f32) (e : IVec Cert.KernelIdeal.S2x600000 32)
    (w1 : FVec Ideal Cert.KernelIdeal.S128x128 .f32) (b1 : FVec Ideal Cert.KernelIdeal.S128 .f32)
    (w2 : FVec Ideal Cert.KernelIdeal.S128x64 .f32) (b2 : FVec Ideal Cert.KernelIdeal.S64 .f32) :
    Cert.ReferenceIdeal.Hand.network x e w1 b1 w2 b2 = Cert.KernelIdeal.Hand.network x e w1 b1 w2 b2 := by
  unfold Cert.ReferenceIdeal.Hand.network Cert.KernelIdeal.Hand.network
  rw [srcAll_eq, dstAll_eq, edgeNorm_eq, aggregate128_eq, aggregate64_eq]

end Cert.Bridge

end
-- ==== Proof.lean ====
/-
  The certificate of a two-layer graph convolution computed with four tiled regions (two dense products, two bias steps)
  and host gather / scatter-add between them, against the same network written with host operations only.

  On the extended reals both programs compute ONE function of the six arguments: node features times the first weights,
  aggregated over the edges (each edge's source row scaled by the product of its endpoints' inverse root degrees and summed
  into the edge's target row, a self-loop added per node), plus the first bias, positive part; then the same with the second
  weights and bias, without the positive part. The kernel's tiled dense products are the host's matrix products (the same
  sum over the contracted axis, row block by row block; rounding the operands to a shorter float format is the identity
  here), its bias regions are the host's broadcast additions and maximum, and the sparse operations are literally the same
  operations applied to equal arguments, so no algebraic law beyond "equal arguments give equal results" is needed and the
  precondition that the inputs are finite is never opened. The kernel computes the edge weights once and the reference
  twice; both are the same function of the edge list.

  The three frames: the two kernel programs' are their launches over the four regions; the reference's is its run with the
  result dropped. The idealized kernel is the kernel's own text read over the extended reals (no rewrite was applied).
-/
import proofs.«105615_j3083786518791_1_alg».proof.Defs
import proofs.«105615_j3083786518791_1_alg».proof.Proof.Gen.Kernel
import proofs.«105615_j3083786518791_1_alg».proof.Proof.Gen.Kernel.Frame
import proofs.«105615_j3083786518791_1_alg».proof.Proof.Gen.KernelIdeal
import proofs.«105615_j3083786518791_1_alg».proof.Proof.Gen.KernelIdeal.Frame
import proofs.«105615_j3083786518791_1_alg».proof.Proof.Gen.ReferenceIdeal
import proofs.«105615_j3083786518791_1_alg».proof.Proof.Gen.Pre_finite_inputs
import proofs.«105615_j3083786518791_1_alg».proof.Proof.KernelRun
import proofs.«105615_j3083786518791_1_alg».proof.Proof.KernelValue
import proofs.«105615_j3083786518791_1_alg».proof.Proof.RefRunP
import proofs.«105615_j3083786518791_1_alg».proof.Proof.RefValue
import proofs.«105615_j3083786518791_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the (agreeing) arguments in their result arrays. -/
theorem algebraic : Cert.algebraic_KernelIdeal_ReferenceIdeal := by
  intro m ρ m' ρ' _ hagree
  refine ⟨fun c => Cert.KernelIdeal.Hand.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.w9_result m ρ c), (h c).2⟩)
      (Cert.KernelIdeal.Hand.run_named m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.Hand.res_eq m' c, Cert.Bridge.network_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
